-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x32x32x32 : Shape := ⟨5, ![8, 4, 32, 32, 32]⟩
abbrev S384x4 : Shape := ⟨2, ![384, 4]⟩
abbrev S384 : Shape := ⟨1, ![384]⟩
abbrev S1024x2 : Shape := ⟨2, ![1024, 2]⟩
abbrev S_ : Shape := ⟨0, ![]⟩

class Facts : Prop where
  bcast_S_S8x4x32x32x32 : S_.BroadcastsInDim S8x4x32x32x32 (![] : Fin 0 → Fin S8x4x32x32x32.rank)
  reducesTo_S8x4x32x32x32_S_d0_1_2_3_4 : S8x4x32x32x32.ReducesTo [0, 1, 2, 3, 4] S_
  h_S_ : 0 < S_.numel
  bcast_S_S384x4 : S_.BroadcastsInDim S384x4 (![] : Fin 0 → Fin S384x4.rank)
  reducesTo_S384x4_S_d0_1 : S384x4.ReducesTo [0, 1] S_
  bcast_S_S384 : S_.BroadcastsInDim S384 (![] : Fin 0 → Fin S384.rank)
  reducesTo_S384_S_d0 : S384.ReducesTo [0] S_

variable [Facts]

def fn {F : FTy → Type} [FloatOps F] (main_arg0 : FVec F S8x4x32x32x32 .f32) (main_arg1 : FVec F S384x4 .f32) (main_arg2 : FVec F S384 .f32) (main_arg3 : IVec S1024x2 32) : IVec S_ 1 :=
  let main_v0 : FVec F S8x4x32x32x32 .f32 := Host.absf main_arg0
  let main_cst : FVec F S_ .f32 := constant S_ .f32 0x7F800000#32
  let main_v1 : FVec F S8x4x32x32x32 .f32 := broadcastInDim S8x4x32x32x32 ![] bcast_S_S8x4x32x32x32 main_cst
  let main_v2 : IVec S8x4x32x32x32 1 := cmpf .olt main_v0 main_v1
  let main_c : IVec S_ 1 := constantI S_ 1 1#1
  let main_v3 : IVec S_ 1 := (fun x v => Host.reduce IntOp.andi x v reducesTo_S8x4x32x32x32_S_d0_1_2_3_4 h_S_) main_v2 main_c
  let main_v4 : FVec F S384x4 .f32 := Host.absf main_arg1
  let main_cst_0 : FVec F S_ .f32 := constant S_ .f32 0x7F800000#32
  let main_v5 : FVec F S384x4 .f32 := broadcastInDim S384x4 ![] bcast_S_S384x4 main_cst_0
  let main_v6 : IVec S384x4 1 := cmpf .olt main_v4 main_v5
  let main_c_1 : IVec S_ 1 := constantI S_ 1 1#1
  let main_v7 : IVec S_ 1 := (fun x v => Host.reduce IntOp.andi x v reducesTo_S384x4_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  main_v13
-- ==== Kernel.lean ====
abbrev S8x4x32x32x32 : Shape := ⟨5, ![8, 4, 32, 32, 32]⟩
abbrev S384x4 : Shape := ⟨2, ![384, 4]⟩
abbrev S384 : Shape := ⟨1, ![384]⟩
abbrev S1024x2 : Shape := ⟨2, ![1024, 2]⟩
abbrev S1024x1 : Shape := ⟨2, ![1024, 1]⟩
abbrev S1024 : Shape := ⟨1, ![1024]⟩
abbrev S4x384 : Shape := ⟨2, ![4, 384]⟩
abbrev S1x384 : Shape := ⟨2, ![1, 384]⟩
abbrev S8x32x4x32x32 : Shape := ⟨5, ![8, 32, 4, 32, 32]⟩
abbrev S256x4x32x32 : Shape := ⟨4, ![256, 4, 32, 32]⟩
abbrev S_ : Shape := ⟨0, ![]⟩
abbrev S256x4x1024 : Shape := ⟨3, ![256, 4, 1024]⟩
abbrev S8x4x32768 : Shape := ⟨3, ![8, 4, 32768]⟩
abbrev S8x32768x4 : Shape := ⟨3, ![8, 32768, 4]⟩
abbrev S262144x4 : Shape := ⟨2, ![262144, 4]⟩
abbrev S262144x384 : Shape := ⟨2, ![262144, 384]⟩
abbrev S8192x4 : Shape := ⟨2, ![8192, 4]⟩
abbrev S8192x384 : Shape := ⟨2, ![8192, 384]⟩
abbrev S8x32x1024x384 : Shape := ⟨4, ![8, 32, 1024, 384]⟩
abbrev S8x32x1024 : Shape := ⟨3, ![8, 32, 1024]⟩
abbrev S8x4x8192 : Shape := ⟨3, ![8, 4, 8192]⟩
abbrev S8x8192x4 : Shape := ⟨3, ![8, 8192, 4]⟩
abbrev S65536x4 : Shape := ⟨2, ![65536, 4]⟩
abbrev S65536x384 : Shape := ⟨2, ![65536, 384]⟩
abbrev S8x8x1024x384 : Shape := ⟨4, ![8, 8, 1024, 384]⟩

abbrev nBuf : Space → Nat
  | .hbm => 58
  | .vmem => 12
  | .smem => 0
  | _ => 0

abbrev bufTy : (tb : Table) → Fin (tcTables nBuf tb) → BufTy
  | .hbm, ⟨0, _⟩ => ⟨S8x4x32x32x32, .f32⟩
  | .hbm, ⟨1, _⟩ => ⟨S384x4, .f32⟩
  | .hbm, ⟨2, _⟩ => ⟨S384, .f32⟩
  | .hbm, ⟨3, _⟩ => ⟨S1024x2, .i32⟩
  | .hbm, ⟨4, _⟩ => ⟨S1024x1, .i32⟩
  | .hbm, ⟨5, _⟩ => ⟨S1024, .i32⟩
  | .hbm, ⟨6, _⟩ => ⟨S1024x1, .i32⟩
  | .hbm, ⟨7, _⟩ => ⟨S1024, .i32⟩
  | .hbm, ⟨8, _⟩ => ⟨S4x384, .f32⟩
  | .hbm, ⟨9, _⟩ => ⟨S1x384, .f32⟩
  | .hbm, ⟨10, _⟩ => ⟨S8x32x4x32x32, .f32⟩
  | .hbm, ⟨11, _⟩ => ⟨S256x4x32x32, .f32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024x1, .i32⟩
  | .hbm, ⟨28, _⟩ => ⟨S1024x2, .i32⟩
  | .hbm, ⟨29, _⟩ => ⟨S256x4x1024, .f32⟩
  | .hbm, ⟨30, _⟩ => ⟨S8x4x32768, .f32⟩
  | .hbm, ⟨31, _⟩ => ⟨S8x32768x4, .f32⟩
  | .hbm, ⟨32, _⟩ => ⟨S262144x4, .f32⟩
  | .hbm, ⟨33, _⟩ => ⟨S262144x384, .f32⟩
  | .hbm, ⟨34, _⟩ => ⟨S8x32x1024x384, .f32⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S_, .i32⟩
  | .hbm, ⟨39, _⟩ => ⟨S1024, .i32⟩
  | .hbm, ⟨40, _⟩ => ⟨S1024, .i32⟩
  | .hbm, ⟨41, _⟩ => ⟨S1024, .i32⟩
  | .hbm, ⟨42, _⟩ => ⟨S_, .i32⟩
  | .hbm, ⟨43, _⟩ => ⟨S1024, .i32⟩
  | .hbm, ⟨44, _⟩ => ⟨S1024, .i1⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S1024, .i32⟩
  | .hbm, ⟨49, _⟩ => ⟨S1024x1, .i32⟩
  | .hbm, ⟨50, _⟩ => ⟨S1024x1, .i32⟩
  | .hbm, ⟨51, _⟩ => ⟨S1024x2, .i32⟩
  | .hbm, ⟨52, _⟩ => ⟨S8x32x1024, .f32⟩
  | .hbm, ⟨53, _⟩ => ⟨S8x4x8192, .f32⟩
  | .hbm, ⟨54, _⟩ => ⟨S8x8192x4, .f32⟩
  | .hbm, ⟨55, _⟩ => ⟨S65536x4, .f32⟩
  | .hbm, ⟨56, _⟩ => ⟨S65536x384, .f32⟩
  | .hbm, ⟨57, _⟩ => ⟨S8x8x1024x384, .f32⟩
  | .local _ .vmem, ⟨0, _⟩ => ⟨S8192x4, .f32⟩
  | .local _ .vmem, ⟨1, _⟩ => ⟨S8192x4, .f32⟩
  | .local _ .vmem, ⟨2, _⟩ => ⟨S4x384, .f32⟩
  | .local _ .vmem, ⟨3, _⟩ => ⟨S1x384, .f32⟩
  | .local _ .vmem, ⟨4, _⟩ => ⟨S8192x384, .f32⟩
  | .local _ .vmem, ⟨5, _⟩ => ⟨S8192x384, .f32⟩
  | .local _ .vmem, ⟨6, _⟩ => ⟨S8192x4, .f32⟩
  | .local _ .vmem, ⟨7, _⟩ => ⟨S8192x4, .f32⟩
  | .local _ .vmem, ⟨8, _⟩ => ⟨S4x384, .f32⟩
  | .local _ .vmem, ⟨9, _⟩ => ⟨S1x384, .f32⟩
  | .local _ .vmem, ⟨10, _⟩ => ⟨S8192x384, .f32⟩
  | .local _ .vmem, ⟨11, _⟩ => ⟨S8192x384, .f32⟩
  | _, _ => ⟨S8x4x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_3 : Ref sig .tc := ⟨.hbm, 35, rfl⟩
abbrev main_v27 : Ref sig .tc := ⟨.hbm, 36, rfl⟩
abbrev main_v28 : Ref sig .tc := ⟨.hbm, 37, rfl⟩
abbrev main_c_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_c_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S1024x2_S1024x1_0_0 : S1024x2.Slices ![0, 0] S1024x1
  shapeCasts_S1024x1_S1024 : S1024x1.ShapeCasts S1024
  slices_S1024x2_S1024x1_0_1 : S1024x2.Slices ![0, 1] S1024x1
  transposes_S384x4_S4x384_1_0 : S384x4.Transposes [1, 0] S4x384
  shapeCasts_S384_S1x384 : S384.ShapeCasts S1x384
  transposes_S8x4x32x32x32_S8x32x4x32x32_0_2_1_3_4 : S8x4x32x32x32.Transposes [0, 2, 1, 3, 4] S8x32x4x32x32
  shapeCasts_S8x32x4x32x32_S256x4x32x32 : S8x32x4x32x32.ShapeCasts S256x4x32x32
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  shapeCasts_S256x4x1024_S8x4x32768 : S256x4x1024.ShapeCasts S8x4x32768
  transposes_S8x4x32768_S8x32768x4_0_2_1 : S8x4x32768.Transposes [0, 2, 1] S8x32768x4
  shapeCasts_S8x32768x4_S262144x4 : S8x32768x4.ShapeCasts S262144x4
  inb_S8192x4_S8192x4_0_0 : ∀ a, (![0, 0] : Fin 2 → Nat) a + S8192x4.size a ≤ S8192x4.size a
  h_S8192x4 : 0 < S8192x4.numel
  shapeCasts_S8192x4_S8192x4 : S8192x4.ShapeCasts S8192x4
  inb_S4x384_S4x384_0_0 : ∀ a, (![0, 0] : Fin 2 → Nat) a + S4x384.size a ≤ S4x384.size a
  h_S4x384 : 0 < S4x384.numel
  shapeCasts_S4x384_S4x384 : S4x384.ShapeCasts S4x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S8192x384 : S1x384.Broadcasts S8192x384
  inb_S8192x384_S8192x384_0_0 : ∀ a, (![0, 0] : Fin 2 → Nat) a + S8192x384.size a ≤ S8192x384.size a
  h_S8192x384 : 0 < S8192x384.numel
  shapeCasts_S262144x384_S8x32x1024x384 : S262144x384.ShapeCasts S8x32x1024x384
  shapeCasts_S8x32x1024_S8x4x8192 : S8x32x1024.ShapeCasts S8x4x8192
  transposes_S8x4x8192_S8x8192x4_0_2_1 : S8x4x8192.Transposes [0, 2, 1] S8x8192x4
  shapeCasts_S8x8192x4_S65536x4 : S8x8192x4.ShapeCasts S65536x4
  shapeCasts_S65536x384_S8x8x1024x384 : S65536x384.ShapeCasts S8x8x1024x384
  gather_S256x4x32x32_S1024x2_S256x4x1024_01_23_n_n_23_1_256411_wf : GatherDims.WF S256x4x32x32 S1024x2 S256x4x1024 [0, 1] [2, 3] [] [2, 3] [] 1 ![256, 4, 1, 1]
  dot_S8192x4_S4x384_S8192x384_1_0_0_1_n_n_wf : DotDims.WF S8192x4 S4x384 S8192x384 [1] [0] [0] [1] [] []
  gather_S8x32x1024x384_S1024x2_S8x32x1024_01_23_n_n_23_1_83211_wf : GatherDims.WF S8x32x1024x384 S1024x2 S8x32x1024 [0, 1] [2, 3] [] [2, 3] [] 1 ![8, 32, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x4.size a ≤ S262144x4.size a
  hwx0_0 : ∀ i : grid0.Coords, EltTy.bits .f32 = 32 ∨ (Rect.block (s := S262144x4) S8192x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x384.size a ≤ S4x384.size a
  hwx0_1 : ∀ i : grid0.Coords, EltTy.bits .f32 = 32 ∨ (Rect.block (s := S4x384) S4x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x384.size a ≤ S262144x384.size a
  hwx0_3 : ∀ i : grid0.Coords, EltTy.bits .f32 = 32 ∨ (Rect.block (s := S262144x384) S8192x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x4.size a ≤ S65536x4.size a
  hwx1_0 : ∀ i : grid1.Coords, EltTy.bits .f32 = 32 ∨ (Rect.block (s := S65536x4) S8192x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x384.size a ≤ S4x384.size a
  hwx1_1 : ∀ i : grid1.Coords, EltTy.bits .f32 = 32 ∨ (Rect.block (s := S4x384) S4x384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x384.size a ≤ S1x384.size a
  hwx1_2 : ∀ i : grid1.Coords, EltTy.bits .f32 = 32 ∨ (Rect.block (s := S1x384) S1x384.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x384.size a ≤ S65536x384.size a
  hwx1_3 : ∀ i : grid1.Coords, EltTy.bits .f32 = 32 ∨ (Rect.block (s := S65536x384) S8192x384.size (cc1_transform_3 i) (hinb1_3 i)).WholeWords (EltTy.packing .f32)

variable [Facts₀]

def gather_S256x4x32x32_S1024x2_S256x4x1024_01_23_n_n_23_1_256411 : GatherDims S256x4x32x32 S1024x2 S256x4x1024 where
  offsetDims := [0, 1]
  collapsedSliceDims := [2, 3]
  operandBatchingDims := []
  startIndicesBatchingDims := []
  startIndexMap := [2, 3]
  indexVectorDim := 1
  sliceSizes := ![256, 4, 1, 1]
  wf := gather_S256x4x32x32_S1024x2_S256x4x1024_01_23_n_n_23_1_256411_wf
def dot_S8192x4_S4x384_S8192x384_1_0_0_1_n_n : DotDims S8192x4 S4x384 S8192x384 where
  lhsContracting := [1]
  rhsContracting := [0]
  lhsNonContracting := [0]
  rhsNonContracting := [1]
  lhsBatch := []
  rhsBatch := []
  wf := dot_S8192x4_S4x384_S8192x384_1_0_0_1_n_n_wf
def gather_S8x32x1024x384_S1024x2_S8x32x1024_01_23_n_n_23_1_83211 : GatherDims S8x32x1024x384 S1024x2 S8x32x1024 where
  offsetDims := [0, 1]
  collapsedSliceDims := [2, 3]
  operandBatchingDims := []
  startIndicesBatchingDims := []
  startIndexMap := [2, 3]
  indexVectorDim := 1
  sliceSizes := ![8, 32, 1, 1]
  wf := gather_S8x32x1024x384_S1024x2_S8x32x1024_01_23_n_n_23_1_83211_wf

abbrev win0_0 : Pipeline.Window sig grid0 :=
  Pipeline.Window.ofSpec (Memref.whole main_v24) S8192x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S8192x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S8192x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S8192x384.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x4x32x32x32 : Shape := ⟨5, ![8, 4, 32, 32, 32]⟩
abbrev S384x4 : Shape := ⟨2, ![384, 4]⟩
abbrev S384 : Shape := ⟨1, ![384]⟩
abbrev S1024x2 : Shape := ⟨2, ![1024, 2]⟩
abbrev S1024x1 : Shape := ⟨2, ![1024, 1]⟩
abbrev S1024 : Shape := ⟨1, ![1024]⟩
abbrev S8x32x4x32x32 : Shape := ⟨5, ![8, 32, 4, 32, 32]⟩
abbrev S256x4x32x32 : Shape := ⟨4, ![256, 4, 32, 32]⟩
abbrev S_ : Shape := ⟨0, ![]⟩
abbrev S256x4x1024 : Shape := ⟨3, ![256, 4, 1024]⟩
abbrev S8x4x32768 : Shape := ⟨3, ![8, 4, 32768]⟩
abbrev S8x32768x4 : Shape := ⟨3, ![8, 32768, 4]⟩
abbrev S262144x4 : Shape := ⟨2, ![262144, 4]⟩
abbrev S4x384 : Shape := ⟨2, ![4, 384]⟩
abbrev S262144x384 : Shape := ⟨2, ![262144, 384]⟩
abbrev S1x384 : Shape := ⟨2, ![1, 384]⟩
abbrev S8x32x1024x384 : Shape := ⟨4, ![8, 32, 1024, 384]⟩
abbrev S8x32x1024 : Shape := ⟨3, ![8, 32, 1024]⟩
abbrev S8x4x8192 : Shape := ⟨3, ![8, 4, 8192]⟩
abbrev S8x8192x4 : Shape := ⟨3, ![8, 8192, 4]⟩
abbrev S65536x4 : Shape := ⟨2, ![65536, 4]⟩
abbrev S65536x384 : Shape := ⟨2, ![65536, 384]⟩
abbrev S8x8x1024x384 : Shape := ⟨4, ![8, 8, 1024, 384]⟩

abbrev nBuf : Space → Nat
  | .hbm => 64
  | .vmem => 0
  | .smem => 0
  | _ => 0

abbrev bufTy : (tb : Table) → Fin (tcTables nBuf tb) → BufTy
  | .hbm, ⟨0, _⟩ => ⟨S8x4x32x32x32, .f32⟩
  | .hbm, ⟨1, _⟩ => ⟨S384x4, .f32⟩
  | .hbm, ⟨2, _⟩ => ⟨S384, .f32⟩
  | .hbm, ⟨3, _⟩ => ⟨S1024x2, .i32⟩
  | .hbm, ⟨4, _⟩ => ⟨S1024x1, .i32⟩
  | .hbm, ⟨5, _⟩ => ⟨S1024, .i32⟩
  | .hbm, ⟨6, _⟩ => ⟨S1024x1, .i32⟩
  | .hbm, ⟨7, _⟩ => ⟨S1024, .i32⟩
  | .hbm, ⟨8, _⟩ => ⟨S8x32x4x32x32, .f32⟩
  | .hbm, ⟨9, _⟩ => ⟨S256x4x32x32, .f32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S1024x1, .i32⟩
  | .hbm, ⟨26, _⟩ => ⟨S1024x2, .i32⟩
  | .hbm, ⟨27, _⟩ => ⟨S256x4x1024, .f32⟩
  | .hbm, ⟨28, _⟩ => ⟨S8x4x32768, .f32⟩
  | .hbm, ⟨29, _⟩ => ⟨S8x32768x4, .f32⟩
  | .hbm, ⟨30, _⟩ => ⟨S262144x4, .f32⟩
  | .hbm, ⟨31, _⟩ => ⟨S4x384, .f32⟩
  | .hbm, ⟨32, _⟩ => ⟨S262144x384, .f32⟩
  | .hbm, ⟨33, _⟩ => ⟨S1x384, .f32⟩
  | .hbm, ⟨34, _⟩ => ⟨S262144x384, .f32⟩
  | .hbm, ⟨35, _⟩ => ⟨S262144x384, .f32⟩
  | .hbm, ⟨36, _⟩ => ⟨S8x32x1024x384, .f32⟩
  | .hbm, ⟨37, _⟩ => ⟨S_, .i32⟩
  | .hbm, ⟨38, _⟩ => ⟨S1024, .i32⟩
  | .hbm, ⟨39, _⟩ => ⟨S1024, .i1⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S1024, .i32⟩
  | .hbm, ⟨44, _⟩ => ⟨S_, .i32⟩
  | .hbm, ⟨45, _⟩ => ⟨S1024, .i32⟩
  | .hbm, ⟨46, _⟩ => ⟨S1024, .i1⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S1024x1, .i32⟩
  | .hbm, ⟨52, _⟩ => ⟨S1024x1, .i32⟩
  | .hbm, ⟨53, _⟩ => ⟨S1024x2, .i32⟩
  | .hbm, ⟨54, _⟩ => ⟨S8x32x1024, .f32⟩
  | .hbm, ⟨55, _⟩ => ⟨S8x4x8192, .f32⟩
  | .hbm, ⟨56, _⟩ => ⟨S8x8192x4, .f32⟩
  | .hbm, ⟨57, _⟩ => ⟨S65536x4, .f32⟩
  | .hbm, ⟨58, _⟩ => ⟨S4x384, .f32⟩
  | .hbm, ⟨59, _⟩ => ⟨S65536x384, .f32⟩
  | .hbm, ⟨60, _⟩ => ⟨S1x384, .f32⟩
  | .hbm, ⟨61, _⟩ => ⟨S65536x384, .f32⟩
  | .hbm, ⟨62, _⟩ => ⟨S65536x384, .f32⟩
  | .hbm, ⟨63, _⟩ => ⟨S8x8x1024x384, .f32⟩
  | _, _ => ⟨S8x4x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_3 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_c_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩

abbrev nD : Nat := 1
abbrev τ : Topo := Topo.v7x

variable {F : FTy → Type} [FloatOps F]

class Facts₀ : Prop where
  slices_S1024x2_S1024x1_0_0 : S1024x2.Slices ![0, 0] S1024x1
  shapeCasts_S1024x1_S1024 : S1024x1.ShapeCasts S1024
  slices_S1024x2_S1024x1_0_1 : S1024x2.Slices ![0, 1] S1024x1
  transposes_S8x4x32x32x32_S8x32x4x32x32_0_2_1_3_4 : S8x4x32x32x32.Transposes [0, 2, 1, 3, 4] S8x32x4x32x32
  shapeCasts_S8x32x4x32x32_S256x4x32x32 : S8x32x4x32x32.ShapeCasts S256x4x32x32
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  shapeCasts_S256x4x1024_S8x4x32768 : S256x4x1024.ShapeCasts S8x4x32768
  transposes_S8x4x32768_S8x32768x4_0_2_1 : S8x4x32768.Transposes [0, 2, 1] S8x32768x4
  shapeCasts_S8x32768x4_S262144x4 : S8x32768x4.ShapeCasts S262144x4
  transposes_S384x4_S4x384_1_0 : S384x4.Transposes [1, 0] S4x384
  bcast_S384_S1x384_1 : S384.BroadcastsInDim S1x384 (![1] : Fin 1 → Fin S1x384.rank)
  bcast_S1x384_S262144x384_0_1 : S1x384.BroadcastsInDim S262144x384 (![0, 1] : Fin 2 → Fin S262144x384.rank)
  shapeCasts_S262144x384_S8x32x1024x384 : S262144x384.ShapeCasts S8x32x1024x384
  shapeCasts_S8x32x1024_S8x4x8192 : S8x32x1024.ShapeCasts S8x4x8192
  transposes_S8x4x8192_S8x8192x4_0_2_1 : S8x4x8192.Transposes [0, 2, 1] S8x8192x4
  shapeCasts_S8x8192x4_S65536x4 : S8x8192x4.ShapeCasts S65536x4
  bcast_S1x384_S65536x384_0_1 : S1x384.BroadcastsInDim S65536x384 (![0, 1] : Fin 2 → Fin S65536x384.rank)
  shapeCasts_S65536x384_S8x8x1024x384 : S65536x384.ShapeCasts S8x8x1024x384
  gather_S256x4x32x32_S1024x2_S256x4x1024_01_23_n_n_23_1_256411_wf : GatherDims.WF S256x4x32x32 S1024x2 S256x4x1024 [0, 1] [2, 3] [] [2, 3] [] 1 ![256, 4, 1, 1]
  dot_S262144x4_S4x384_S262144x384_1_0_0_1_n_n_wf : DotDims.WF S262144x4 S4x384 S262144x384 [1] [0] [0] [1] [] []
  gather_S8x32x1024x384_S1024x2_S8x32x1024_01_23_n_n_23_1_83211_wf : GatherDims.WF S8x32x1024x384 S1024x2 S8x32x1024 [0, 1] [2, 3] [] [2, 3] [] 1 ![8, 32, 1, 1]
  dot_S65536x4_S4x384_S65536x384_1_0_0_1_n_n_wf : DotDims.WF S65536x4 S4x384 S65536x384 [1] [0] [0] [1] [] []

variable [Facts₀]

def gather_S256x4x32x32_S1024x2_S256x4x1024_01_23_n_n_23_1_256411 : GatherDims S256x4x32x32 S1024x2 S256x4x1024 where
  offsetDims := [0, 1]
  collapsedSliceDims := [2, 3]
  operandBatchingDims := []
  startIndicesBatchingDims := []
  startIndexMap := [2, 3]
  indexVectorDim := 1
  sliceSizes := ![256, 4, 1, 1]
  wf := gather_S256x4x32x32_S1024x2_S256x4x1024_01_23_n_n_23_1_256411_wf
def dot_S262144x4_S4x384_S262144x384_1_0_0_1_n_n : DotDims S262144x4 S4x384 S262144x384 where
  lhsContracting := [1]
  rhsContracting := [0]
  lhsNonContracting := [0]
  rhsNonContracting := [1]
  lhsBatch := []
  rhsBatch := []
  wf := dot_S262144x4_S4x384_S262144x384_1_0_0_1_n_n_wf
def gather_S8x32x1024x384_S1024x2_S8x32x1024_01_23_n_n_23_1_83211 : GatherDims S8x32x1024x384 S1024x2 S8x32x1024 where
  offsetDims := [0, 1]
  collapsedSliceDims := [2, 3]
  operandBatchingDims := []
  startIndicesBatchingDims := []
  startIndexMap := [2, 3]
  indexVectorDim := 1
  sliceSizes := ![8, 32, 1, 1]
  wf := gather_S8x32x1024x384_S1024x2_S8x32x1024_01_23_n_n_23_1_83211_wf
def dot_S65536x4_S4x384_S65536x384_1_0_0_1_n_n : DotDims S65536x4 S4x384 S65536x384 where
  lhsContracting := [1]
  rhsContracting := [0]
  lhsNonContracting := [0]
  rhsNonContracting := [1]
  lhsBatch := []
  rhsBatch := []
  wf := dot_S65536x4_S4x384_S65536x384_1_0_0_1_n_n_wf

class Facts : Prop extends Facts₀ where

variable [Facts]
-- ==== Proof.KernelRun.lean ====
/-
  The idealized kernel's whole run with its RESULT kept in the post. The program is five segments: the host
  operations that gather the first tokens, the first pallas_call, the host operations that re-gather from its output,
  the second pallas_call, and the last reshape. The generated segment records carry the buffer contents across each
  boundary (`W0 … W5`), so every weakly fair execution ends with each unscoped buffer at `W5`; read at the result
  buffer this names the result, and read at the arguments it gives them back unchanged.
-/
import proofs.«131670_j13073880449624_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault, with the result buffer at the last
    boundary's contents `W5` and the four arguments as launched. -/
theorem run_result : θ_run defs (onTc (τ := τ) (main (F := F))) ⟨m, fun _ => 0, ρ⟩ (fun r => ∀ c : Dev nD,
      r.2.mem ((c.tc : Thread nD τ).loc main_v45) = W5 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v45 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Hand

end
-- ==== Proof.Spec.lean ====
/-
  The affine map that both programs apply, twice: a row of four numbers times a 4 × 384 matrix, plus a row of
  384 biases. Over the extended reals, for a token array `t` of `n` rows, a weight matrix `w` and a bias row `b`,

      lin t w b r q = Σ_{k < 4} t[r, k] · w[k, q]  +  b[0, q].

  Only this shape of the expression matters below: the kernel's matrix product into a zero accumulator and the
  reference's `dot_general` are both this four-term sum in the same order, so no law of the extended reals beyond
  `0 + x = x` is used and no finiteness of the inputs is needed.
-/
import Idealize.ShloMosaic.Lib.ValueIdx
import Idealize.ShloMosaic.PureOps.Ideal

noncomputable section

namespace Cert.Hand

open Idealize.ShloMosaic Idealize.ShloMosaic.ValueIdx

/-- Entry `(r, q)` of `t · w + b`: the four products of row `r` of `t` with column `q` of `w`, summed, plus the
    bias of column `q`. -/
def lin {n : Nat} (t : (⟨2, ![n, 4]⟩ : Shape).Idx → EReal) (w : (⟨2, ![4, 384]⟩ : Shape).Idx → EReal)
    (b : (⟨2, ![1, 384]⟩ : Shape).Idx → EReal) (r : Fin n) (q : Fin 384) : EReal :=
  (∑ k : Fin 4, t (ix2 r k) * w (ix2 k q)) + b (ix2 (0 : Fin 1) q)

/-- The whole array `t · w + b`, index by index. -/
def linArr {n : Nat} (t : (⟨2, ![n, 4]⟩ : Shape).Idx → EReal) (w : (⟨2, ![4, 384]⟩ : Shape).Idx → EReal)
    (b : (⟨2, ![1, 384]⟩ : Shape).Idx → EReal) : (⟨2, ![n, 384]⟩ : Shape).Idx → EReal :=
  fun i => lin t w b (i 0) (i 1)

theorem linArr_ix2 {n : Nat} (t : (⟨2, ![n, 4]⟩ : Shape).Idx → EReal) (w : (⟨2, ![4, 384]⟩ : Shape).Idx → EReal)
    (b : (⟨2, ![1, 384]⟩ : Shape).Idx → EReal) (r : Fin n) (q : Fin 384) :
    linArr t w b (ix2 r q) = lin t w b r q := rfl

end Cert.Hand

end
-- ==== Proof.Payload.lean ====
/-
  What one grid point of either pallas_call computes, read at an entry. The body loads a block of 8192 token rows,
  the whole 4 × 384 weight matrix and the bias row, multiplies into a zero accumulator and adds the bias row to
  every row. At the ideal values the product at `(p, q)` is the sum over the one contracted axis (extent 4) of
  `x0[p, k] · x1[k, q]`, so the stored block is `lin x0 x1 x2` at every entry. The two calls' bodies are the same
  function.
-/
import proofs.«131670_j13073880449624_1_alg».proof.Proof.Gen.KernelIdeal.Skeleton
import proofs.«131670_j13073880449624_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.Hand Idealize.ShloMosaic Idealize.ShloMosaic.ValueIdx

/-! ## The operand indices of the block's matrix product -/

theorem dotL0 (i : S8192x384.Idx) (q : dot_S8192x4_S4x384_S8192x384_1_0_0_1_n_n.contr.Idx) :
    (dot_S8192x4_S4x384_S8192x384_1_0_0_1_n_n.lhsIdx i q 0).val = (i 0).val := by
  unfold DotDims.lhsIdx
  rw [dif_neg (show ¬(0 : Fin S8192x4.rank) ∈ dot_S8192x4_S4x384_S8192x384_1_0_0_1_n_n.lhsBatch by decide), dif_pos (show (0 : Fin S8192x4.rank) ∈ dot_S8192x4_S4x384_S8192x384_1_0_0_1_n_n.lhsNonContracting by decide)]
  rfl
theorem dotL1 (i : S8192x384.Idx) (q : dot_S8192x4_S4x384_S8192x384_1_0_0_1_n_n.contr.Idx) :
    (dot_S8192x4_S4x384_S8192x384_1_0_0_1_n_n.lhsIdx i q 1).val = (q ⟨0, by decide⟩).val :=
  dot_S8192x4_S4x384_S8192x384_1_0_0_1_n_n.lhsIdx_val_of_single rfl i q
theorem dotR0 (i : S8192x384.Idx) (q : dot_S8192x4_S4x384_S8192x384_1_0_0_1_n_n.contr.Idx) :
    (dot_S8192x4_S4x384_S8192x384_1_0_0_1_n_n.rhsIdx i q 0).val = (q ⟨0, by decide⟩).val :=
  dot_S8192x4_S4x384_S8192x384_1_0_0_1_n_n.rhsIdx_val_of_single rfl i q
theorem dotR1 (i : S8192x384.Idx) (q : dot_S8192x4_S4x384_S8192x384_1_0_0_1_n_n.contr.Idx) :
    (dot_S8192x4_S4x384_S8192x384_1_0_0_1_n_n.rhsIdx i q 1).val = (i 1).val := by
  unfold DotDims.rhsIdx
  rw [dif_neg (show ¬(1 : Fin S4x384.rank) ∈ dot_S8192x4_S4x384_S8192x384_1_0_0_1_n_n.rhsBatch by decide), dif_pos (show (1 : Fin S4x384.rank) ∈ dot_S8192x4_S4x384_S8192x384_1_0_0_1_n_n.rhsNonContracting by decide)]
  rfl

/-- The block's product into the zero accumulator, at `(p, q)`: the four products along the contracted axis. -/
theorem matmul_block_apply (x0 : FVec Ideal S8192x4 .f32) (x1 : FVec Ideal S4x384 .f32) (p : Fin 8192) (q : Fin 384) :
    matmul dot_S8192x4_S4x384_S8192x384_1_0_0_1_n_n none x0 x1 (constant S8192x384 .f32 0x00000000#32) (ix2 p q)
      = ∑ k : Fin 4, x0 (ix2 p k) * x1 (ix2 k q) := by
  refine (Ideal.matmul_constant_zero_apply dot_S8192x4_S4x384_S8192x384_1_0_0_1_n_n none x0 x1 (ix2 p q)).trans ?_
  rw [← Equiv.sum_comp (ValueIdx.contrEquiv1 dot_S8192x4_S4x384_S8192x384_1_0_0_1_n_n 4 rfl rfl).symm]
  refine Finset.sum_congr rfl fun k _ => ?_
  have hk := ValueIdx.contrEquiv1_symm_val dot_S8192x4_S4x384_S8192x384_1_0_0_1_n_n 4 rfl rfl k
  have el : dot_S8192x4_S4x384_S8192x384_1_0_0_1_n_n.lhsIdx (ix2 p q) ((ValueIdx.contrEquiv1 dot_S8192x4_S4x384_S8192x384_1_0_0_1_n_n 4 rfl rfl).symm k) = ix2 p k := funext fun a => Fin.ext (by
    match a with
    | ⟨0, _⟩ => exact dotL0 _ _
    | ⟨1, _⟩ => exact (dotL1 _ _).trans hk)
  have er : dot_S8192x4_S4x384_S8192x384_1_0_0_1_n_n.rhsIdx (ix2 p q) ((ValueIdx.contrEquiv1 dot_S8192x4_S4x384_S8192x384_1_0_0_1_n_n 4 rfl rfl).symm k) = ix2 k q := funext fun a => Fin.ext (by
    match a with
    | ⟨0, _⟩ => exact (dotR0 _ _).trans hk
    | ⟨1, _⟩ => exact dotR1 _ _)
  rw [el, er]

/-- The first call's stored block at `(p, q)` is `lin` of its three loaded blocks. -/
theorem pay0_apply (x0 : FVec Ideal S8192x4 .f32) (x1 : FVec Ideal S4x384 .f32) (x2 : FVec Ideal S1x384 .f32)
    (p : Fin 8192) (q : Fin 384) :
    k0_pay1 (F := Ideal) x0 x1 x2 (ix2 p q) = lin x0 x1 x2 p q := by
  unfold k0_pay1 lin
  rw [shapeCast_self, shapeCast_self, shapeCast_self]
  refine congrArg₂ (· + ·) (matmul_block_apply x0 x1 p q) ?_
  exact broadcastTo_1b_ab_apply x2 broadcasts_S1x384_S8192x384 p q

/-- The second call's body is the first's. -/
theorem pay1_eq (x0 : FVec Ideal S8192x4 .f32) (x1 : FVec Ideal S4x384 .f32) (x2 : FVec Ideal S1x384 .f32) :
    k1_pay1 (F := Ideal) x0 x1 x2 = k0_pay1 (F := Ideal) x0 x1 x2 := rfl

end Cert.KernelIdeal.Hand

end
-- ==== Proof.Region0.lean ====
/-
  The first pallas_call as one array equation. Its grid has 32 points; point `t` fetches rows
  `8192·t … 8192·t + 8191` of the token array and the whole weight matrix and bias row, and writes back the same rows
  of the output. So every output entry `(r, q)` is written exactly once, by point `r / 8192`, with
  `lin tok wT b r q`: whatever the region finds in its three operand arrays (`V`), it leaves `linArr` of them in the
  output array, and leaves the operands as it found them.
-/
import proofs.«131670_j13073880449624_1_alg».proof.Proof.Gen.KernelIdeal.Frame
import proofs.«131670_j13073880449624_1_alg».proof.Proof.Payload

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The four index maps over the grid: the token and output windows move one block of rows per point, the weight
    and bias windows stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The operand windows are never written back. -/
theorem noflush0 : ∀ t : Fin cfg0.N, (cfg0.win 0).flush t = false ∧ (cfg0.win 1).flush t = false ∧ (cfg0.win 2).flush t = false :=
  (by decide +kernel : ∀ t : Fin grid0.N, win0_0.flush t = false ∧ win0_1.flush t = false ∧ win0_2.flush t = false)

section
variable (V : (c : Dev nD) → (b : Ref sig .tc) → Buf (Elt Ideal) ((c : Thread nD τ).loc b))

theorem row_lt0 (t : Fin cfg0.N) (p : Fin 8192) : t.val * 8192 + p.val < 262144 := by
  have hN : cfg0.N = 32 := N_0
  have := t.isLt; have := p.isLt; omega

/-- The token block at point `t`: rows `8192·t + p` of the token array. -/
theorem tok_block0 (c : Dev nD) (t : Fin cfg0.N) (p : Fin 8192) (k : Fin 4) :
    (iblk0 V c 0 t : Vec Ideal S8192x4 .f32) (ix2 p k)
      = (V c main_v24 : S262144x4.Idx → EReal) (ix2 (⟨t.val * 8192 + p.val, row_lt0 t p⟩ : Fin 262144) k) := by
  obtain ⟨e0, e1, -⟩ := idx_facts0 t
  unfold iblk0
  rw [View.read_apply]
  show V c main_v24 _ = V c main_v24 _
  refine congrArg (V c main_v24 : S262144x4.Idx → EReal) ?_
  funext a
  apply Fin.ext
  match a with
  | ⟨0, _⟩ => show win0_0.index t (0 : Fin 2) * 8192 + 1 * p.val = t.val * 8192 + p.val; rw [e0]; omega
  | ⟨1, _⟩ => show win0_0.index t (1 : Fin 2) * 4 + 1 * k.val = k.val; rw [e1]; omega

/-- The weight block at every point is the whole weight matrix. -/
theorem w_block0 (c : Dev nD) (t : Fin cfg0.N) (k : Fin 4) (q : Fin 384) :
    (iblk0 V c 1 t : Vec Ideal S4x384 .f32) (ix2 k q) = (V c main_v4 : S4x384.Idx → EReal) (ix2 k q) := by
  obtain ⟨-, -, e2, e3, -⟩ := idx_facts0 t
  unfold iblk0
  rw [View.read_apply]
  show V c main_v4 _ = V c main_v4 _
  refine congrArg (V c main_v4 : S4x384.Idx → EReal) ?_
  funext a
  apply Fin.ext
  match a with
  | ⟨0, _⟩ => show win0_1.index t (0 : Fin 2) * 4 + 1 * k.val = k.val; rw [e2]; omega
  | ⟨1, _⟩ => show win0_1.index t (1 : Fin 2) * 384 + 1 * q.val = q.val; rw [e3]; omega

/-- The bias block at every point is the whole bias row. -/
theorem b_block0 (c : Dev nD) (t : Fin cfg0.N) (q : Fin 384) :
    (iblk0 V c 2 t : Vec Ideal S1x384 .f32) (ix2 (0 : Fin 1) q) = (V c main_v5 : S1x384.Idx → EReal) (ix2 (0 : Fin 1) q) := by
  obtain ⟨-, -, -, -, e4, e5, -⟩ := idx_facts0 t
  unfold iblk0
  rw [View.read_apply]
  show V c main_v5 _ = V c main_v5 _
  refine congrArg (V c main_v5 : S1x384.Idx → EReal) ?_
  funext a
  apply Fin.ext
  match a with
  | ⟨0, _⟩ => show win0_2.index t (0 : Fin 2) * 1 + 1 * 0 = 0; rw [e4]
  | ⟨1, _⟩ => show win0_2.index t (1 : Fin 2) * 384 + 1 * q.val = q.val; rw [e5]; omega

/-- The array the region leaves in its output: `t · w + b` of the arrays it finds. -/
abbrev G0 (c : Dev nD) : S262144x384.Idx → EReal :=
  linArr (n := 262144) (V c main_v24 : S262144x4.Idx → EReal) (V c main_v4 : S4x384.Idx → EReal) (V c main_v5 : S1x384.Idx → EReal)

/-- What point `t` writes back is block `t` of that array. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold out0_3
  rw [View.canon_unit_zero hz]
  simp only [View.ld_unit_zero (S := S8192x4) hz, View.ld_unit_zero (S := S4x384) hz, View.ld_unit_zero (S := S1x384) hz]
  obtain ⟨-, -, -, -, -, -, e6, e7⟩ := idx_facts0 t
  funext j
  obtain ⟨p, q, rfl⟩ : ∃ (p : Fin 8192) (q : Fin 384), j = ix2 p q := ⟨j 0, j 1, eq_ix2 j⟩
  show k0_pay1 (F := Ideal) (iblk0 V c 0 t) (iblk0 V c 1 t) (iblk0 V c 2 t) (ix2 p q) = G0 V c (((cfg0.win 3).blk t).view.emb (ix2 p q))
  have hemb : ((cfg0.win 3).blk t).view.emb (ix2 p q) = (ix2 (⟨t.val * 8192 + p.val, row_lt0 t p⟩ : Fin 262144) q : S262144x384.Idx) := by
    funext a
    apply Fin.ext
    match a with
    | ⟨0, _⟩ => show win0_3.index t (0 : Fin 2) * 8192 + 1 * p.val = t.val * 8192 + p.val; rw [e6]; omega
    | ⟨1, _⟩ => show win0_3.index t (1 : Fin 2) * 384 + 1 * q.val = q.val; rw [e7]; omega
  rw [hemb, pay0_apply (iblk0 V c 0 t) (iblk0 V c 1 t) (iblk0 V c 2 t) p q]
  show lin _ _ _ p q = lin _ _ _ _ q
  unfold lin
  exact congrArg₂ (· + ·) (Finset.sum_congr rfl fun k _ => congrArg₂ (· * ·) (tok_block0 V c t p k) (w_block0 V c t k q)) (b_block0 V c t q)

/-- An index of the output array is in point `t`'s block iff each coordinate is in the block's range. -/
theorem mem_blk0 (t : Fin cfg0.N) (i : S262144x384.Idx) :
    i ∈ ((cfg0.win 3).blk t).view.set ↔ ∀ a : Fin 2, win0_3.index t a * S8192x384.size a ≤ (i a).val ∧ (i a).val < win0_3.index t a * S8192x384.size a + S8192x384.size a := by
  show i ∈ ((View.whole main_v25).slice (win0_3.rect t)).set ↔ _
  rw [View.set_slice_whole, Rect.mem_set_unit]
  exact Iff.rfl

/-- Every output entry is in the block of the point that holds its row. -/
theorem cover0 (i : S262144x384.Idx) : ∃ t : Fin cfg0.N, (cfg0.win 3).flush t = true ∧ i ∈ ((cfg0.win 3).blk t).view.set := by
  have hN : cfg0.N = 32 := N_0
  have h0 : (i 0).val < 262144 := (i 0).isLt
  have h1 : (i 1).val < 384 := (i 1).isLt
  obtain ⟨t, ht⟩ : ∃ t : Fin cfg0.N, t.val = (i 0).val / 8192 := ⟨⟨(i 0).val / 8192, by rw [hN]; omega⟩, rfl⟩
  obtain ⟨-, -, -, -, -, -, e6, e7⟩ := idx_facts0 t
  refine ⟨t, flush0_3 t, ?_⟩
  rw [mem_blk0]
  intro a
  match a with
  | ⟨0, _⟩ => show win0_3.index t (0 : Fin 2) * 8192 ≤ (i 0).val ∧ (i 0).val < win0_3.index t (0 : Fin 2) * 8192 + 8192; rw [e6, ht]; omega
  | ⟨1, _⟩ => show win0_3.index t (1 : Fin 2) * 384 ≤ (i 1).val ∧ (i 1).val < win0_3.index t (1 : Fin 2) * 384 + 384; rw [e7]; omega

/-- THE OUTPUT ARRAY after the region. -/
theorem out_arr0 (c : Dev nD) : (dat0 (F := Ideal) V c).arrAt 3 cfg0.N = G0 V c :=
  (dat0 (F := Ideal) V c).arrAt_eq_of_cover 3 (G0 V c) (fun t _ => flushed0_eq V c t) cover0

/-- The operand arrays after the region are as it found them: no point writes one back. -/
theorem in_arr0_1 (c : Dev nD) : (dat0 (F := Ideal) V c).arrAt 1 cfg0.N = V c main_v4 := by
  funext i
  rw [(dat0 (F := Ideal) V c).arrAt_apply_of_forall_not_mem 1 cfg0.N i (fun t _ hf => absurd hf (by rw [(noflush0 t).2.1]; decide)), A_eq0]
theorem in_arr0_2 (c : Dev nD) : (dat0 (F := Ideal) V c).arrAt 2 cfg0.N = V c main_v5 := by
  funext i
  rw [(dat0 (F := Ideal) V c).arrAt_apply_of_forall_not_mem 2 cfg0.N i (fun t _ hf => absurd hf (by rw [(noflush0 t).2.2]; decide)), A_eq0]

end

end Cert.KernelIdeal.Hand

end
-- ==== Proof.Region1.lean ====
/-
  The second pallas_call as one array equation. Its grid has 8 points; point `t` fetches rows
  `8192·t … 8192·t + 8191` of the token array and the whole weight matrix and bias row, and writes back the same rows
  of the output. So every output entry `(r, q)` is written exactly once, by point `r / 8192`, with
  `lin tok wT b r q`: whatever the region finds in its three operand arrays (`V`), it leaves `linArr` of them in the
  output array, and leaves the operands as it found them.
-/
import proofs.«131670_j13073880449624_1_alg».proof.Proof.Gen.KernelIdeal.Frame
import proofs.«131670_j13073880449624_1_alg».proof.Proof.Payload

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx Idealize.SL.Sem
open Idealize.ShloMosaic.Pipeline (Dat)

theorem hz1 : (![0, 0] : Fin 2 → Nat) = fun _ => 0 := funext fun a => by fin_cases a <;> rfl

/-- The four index maps over the grid: the token and output windows move one block of rows per point, the weight
    and bias windows stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The operand windows are never written back. -/
theorem noflush1 : ∀ t : Fin cfg1.N, (cfg1.win 0).flush t = false ∧ (cfg1.win 1).flush t = false ∧ (cfg1.win 2).flush t = false :=
  (by decide +kernel : ∀ t : Fin grid1.N, win1_0.flush t = false ∧ win1_1.flush t = false ∧ win1_2.flush t = false)

section
variable (V : (c : Dev nD) → (b : Ref sig .tc) → Buf (Elt Ideal) ((c : Thread nD τ).loc b))

theorem row_lt1 (t : Fin cfg1.N) (p : Fin 8192) : t.val * 8192 + p.val < 65536 := by
  have hN : cfg1.N = 8 := N_1
  have := t.isLt; have := p.isLt; omega

/-- The token block at point `t`: rows `8192·t + p` of the token array. -/
theorem tok_block1 (c : Dev nD) (t : Fin cfg1.N) (p : Fin 8192) (k : Fin 4) :
    (iblk1 V c 0 t : Vec Ideal S8192x4 .f32) (ix2 p k)
      = (V c main_v43 : S65536x4.Idx → EReal) (ix2 (⟨t.val * 8192 + p.val, row_lt1 t p⟩ : Fin 65536) k) := by
  obtain ⟨e0, e1, -⟩ := idx_facts1 t
  unfold iblk1
  rw [View.read_apply]
  show V c main_v43 _ = V c main_v43 _
  refine congrArg (V c main_v43 : S65536x4.Idx → EReal) ?_
  funext a
  apply Fin.ext
  match a with
  | ⟨0, _⟩ => show win1_0.index t (0 : Fin 2) * 8192 + 1 * p.val = t.val * 8192 + p.val; rw [e0]; omega
  | ⟨1, _⟩ => show win1_0.index t (1 : Fin 2) * 4 + 1 * k.val = k.val; rw [e1]; omega

/-- The weight block at every point is the whole weight matrix. -/
theorem w_block1 (c : Dev nD) (t : Fin cfg1.N) (k : Fin 4) (q : Fin 384) :
    (iblk1 V c 1 t : Vec Ideal S4x384 .f32) (ix2 k q) = (V c main_v4 : S4x384.Idx → EReal) (ix2 k q) := by
  obtain ⟨-, -, e2, e3, -⟩ := idx_facts1 t
  unfold iblk1
  rw [View.read_apply]
  show V c main_v4 _ = V c main_v4 _
  refine congrArg (V c main_v4 : S4x384.Idx → EReal) ?_
  funext a
  apply Fin.ext
  match a with
  | ⟨0, _⟩ => show win1_1.index t (0 : Fin 2) * 4 + 1 * k.val = k.val; rw [e2]; omega
  | ⟨1, _⟩ => show win1_1.index t (1 : Fin 2) * 384 + 1 * q.val = q.val; rw [e3]; omega

/-- The bias block at every point is the whole bias row. -/
theorem b_block1 (c : Dev nD) (t : Fin cfg1.N) (q : Fin 384) :
    (iblk1 V c 2 t : Vec Ideal S1x384 .f32) (ix2 (0 : Fin 1) q) = (V c main_v5 : S1x384.Idx → EReal) (ix2 (0 : Fin 1) q) := by
  obtain ⟨-, -, -, -, e4, e5, -⟩ := idx_facts1 t
  unfold iblk1
  rw [View.read_apply]
  show V c main_v5 _ = V c main_v5 _
  refine congrArg (V c main_v5 : S1x384.Idx → EReal) ?_
  funext a
  apply Fin.ext
  match a with
  | ⟨0, _⟩ => show win1_2.index t (0 : Fin 2) * 1 + 1 * 0 = 0; rw [e4]
  | ⟨1, _⟩ => show win1_2.index t (1 : Fin 2) * 384 + 1 * q.val = q.val; rw [e5]; omega

/-- The array the region leaves in its output: `t · w + b` of the arrays it finds. -/
abbrev G1 (c : Dev nD) : S65536x384.Idx → EReal :=
  linArr (n := 65536) (V c main_v43 : S65536x4.Idx → EReal) (V c main_v4 : S4x384.Idx → EReal) (V c main_v5 : S1x384.Idx → EReal)

/-- What point `t` writes back is block `t` of that array. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  unfold out1_3
  rw [View.canon_unit_zero hz1]
  simp only [View.ld_unit_zero (S := S8192x4) hz1, View.ld_unit_zero (S := S4x384) hz1, View.ld_unit_zero (S := S1x384) hz1]
  obtain ⟨-, -, -, -, -, -, e6, e7⟩ := idx_facts1 t
  funext j
  obtain ⟨p, q, rfl⟩ : ∃ (p : Fin 8192) (q : Fin 384), j = ix2 p q := ⟨j 0, j 1, eq_ix2 j⟩
  show k1_pay1 (F := Ideal) (iblk1 V c 0 t) (iblk1 V c 1 t) (iblk1 V c 2 t) (ix2 p q) = G1 V c (((cfg1.win 3).blk t).view.emb (ix2 p q))
  have hemb : ((cfg1.win 3).blk t).view.emb (ix2 p q) = (ix2 (⟨t.val * 8192 + p.val, row_lt1 t p⟩ : Fin 65536) q : S65536x384.Idx) := by
    funext a
    apply Fin.ext
    match a with
    | ⟨0, _⟩ => show win1_3.index t (0 : Fin 2) * 8192 + 1 * p.val = t.val * 8192 + p.val; rw [e6]; omega
    | ⟨1, _⟩ => show win1_3.index t (1 : Fin 2) * 384 + 1 * q.val = q.val; rw [e7]; omega
  rw [hemb, pay1_eq, pay0_apply (iblk1 V c 0 t) (iblk1 V c 1 t) (iblk1 V c 2 t) p q]
  show lin _ _ _ p q = lin _ _ _ _ q
  unfold lin
  exact congrArg₂ (· + ·) (Finset.sum_congr rfl fun k _ => congrArg₂ (· * ·) (tok_block1 V c t p k) (w_block1 V c t k q)) (b_block1 V c t q)

/-- An index of the output array is in point `t`'s block iff each coordinate is in the block's range. -/
theorem mem_blk1 (t : Fin cfg1.N) (i : S65536x384.Idx) :
    i ∈ ((cfg1.win 3).blk t).view.set ↔ ∀ a : Fin 2, win1_3.index t a * S8192x384.size a ≤ (i a).val ∧ (i a).val < win1_3.index t a * S8192x384.size a + S8192x384.size a := by
  show i ∈ ((View.whole main_v44).slice (win1_3.rect t)).set ↔ _
  rw [View.set_slice_whole, Rect.mem_set_unit]
  exact Iff.rfl

/-- Every output entry is in the block of the point that holds its row. -/
theorem cover1 (i : S65536x384.Idx) : ∃ t : Fin cfg1.N, (cfg1.win 3).flush t = true ∧ i ∈ ((cfg1.win 3).blk t).view.set := by
  have hN : cfg1.N = 8 := N_1
  have h0 : (i 0).val < 65536 := (i 0).isLt
  have h1 : (i 1).val < 384 := (i 1).isLt
  obtain ⟨t, ht⟩ : ∃ t : Fin cfg1.N, t.val = (i 0).val / 8192 := ⟨⟨(i 0).val / 8192, by rw [hN]; omega⟩, rfl⟩
  obtain ⟨-, -, -, -, -, -, e6, e7⟩ := idx_facts1 t
  refine ⟨t, flush1_3 t, ?_⟩
  rw [mem_blk1]
  intro a
  match a with
  | ⟨0, _⟩ => show win1_3.index t (0 : Fin 2) * 8192 ≤ (i 0).val ∧ (i 0).val < win1_3.index t (0 : Fin 2) * 8192 + 8192; rw [e6, ht]; omega
  | ⟨1, _⟩ => show win1_3.index t (1 : Fin 2) * 384 ≤ (i 1).val ∧ (i 1).val < win1_3.index t (1 : Fin 2) * 384 + 384; rw [e7]; omega

/-- THE OUTPUT ARRAY after the region. -/
theorem out_arr1 (c : Dev nD) : (dat1 (F := Ideal) V c).arrAt 3 cfg1.N = G1 V c :=
  (dat1 (F := Ideal) V c).arrAt_eq_of_cover 3 (G1 V c) (fun t _ => flushed1_eq V c t) cover1

/-- The operand arrays after the region are as it found them: no point writes one back. -/
theorem in_arr1_1 (c : Dev nD) : (dat1 (F := Ideal) V c).arrAt 1 cfg1.N = V c main_v4 := by
  funext i
  rw [(dat1 (F := Ideal) V c).arrAt_apply_of_forall_not_mem 1 cfg1.N i (fun t _ hf => absurd hf (by rw [(noflush1 t).2.1]; decide)), A_eq1]
theorem in_arr1_2 (c : Dev nD) : (dat1 (F := Ideal) V c).arrAt 2 cfg1.N = V c main_v5 := by
  funext i
  rw [(dat1 (F := Ideal) V c).arrAt_apply_of_forall_not_mem 2 cfg1.N i (fun t _ hf => absurd hf (by rw [(noflush1 t).2.2]; decide)), A_eq1]

end

end Cert.KernelIdeal.Hand

end
-- ==== Proof.RefLinear.lean ====
/-
  The reference's two linear layers, read through the generated stage lemmas. Each is a `dot_general` contracting
  the axis of extent 4, plus the bias broadcast down the rows: at an entry `(r, q)` this is the four products
  `t[r, k] · w[k, q]` summed, plus `b[0, q]` — the map `linArr` of the tokens, the transposed weights and the bias row.
-/
import proofs.«131670_j13073880449624_1_alg».proof.Proof.Gen.ReferenceIdeal.Read
import proofs.«131670_j13073880449624_1_alg».proof.Proof.Spec

noncomputable section

namespace Cert.ReferenceIdeal.Hand

open Cert.ReferenceIdeal Cert.ReferenceIdeal.Gen Cert.ReferenceIdeal.Read Cert.Hand Idealize.ShloMosaic Idealize.ShloMosaic.ValueIdx

/-! ## The generated operand indices are rows and columns -/

theorem lidx24 (i : S262144x384.Idx) (k : Fin 4) : lidx_main_v24 i k = ix2 (i 0 : Fin 262144) k :=
  funext fun a => by match a with | ⟨0, _⟩ => rfl | ⟨1, _⟩ => rfl
theorem ridx24 (i : S262144x384.Idx) (k : Fin 4) : ridx_main_v24 i k = ix2 k (i 1 : Fin 384) :=
  funext fun a => by match a with | ⟨0, _⟩ => rfl | ⟨1, _⟩ => rfl
theorem bidx26 (i : S262144x384.Idx) : idx_main_v26 i = ix2 (0 : Fin 1) (i 1 : Fin 384) :=
  funext fun a => by match a with | ⟨0, _⟩ => rfl | ⟨1, _⟩ => rfl

theorem lidx47 (i : S65536x384.Idx) (k : Fin 4) : lidx_main_v47 i k = ix2 (i 0 : Fin 65536) k :=
  funext fun a => by match a with | ⟨0, _⟩ => rfl | ⟨1, _⟩ => rfl
theorem ridx47 (i : S65536x384.Idx) (k : Fin 4) : ridx_main_v47 i k = ix2 k (i 1 : Fin 384) :=
  funext fun a => by match a with | ⟨0, _⟩ => rfl | ⟨1, _⟩ => rfl
theorem bidx49 (i : S65536x384.Idx) : idx_main_v49 i = ix2 (0 : Fin 1) (i 1 : Fin 384) :=
  funext fun a => by match a with | ⟨0, _⟩ => rfl | ⟨1, _⟩ => rfl

/-! ## The two layers -/

/-- The first layer: the gathered tokens times the transposed weights, plus the bias row. -/
theorem layer1 (x0 : (⟨S8x4x32x32x32, .f32⟩ : BufTy).Contents (Elt Ideal)) (x1 : (⟨S384x4, .f32⟩ : BufTy).Contents (Elt Ideal))
    (x2 : (⟨S384, .f32⟩ : BufTy).Contents (Elt Ideal)) (x3 : (⟨S1024x2, .i32⟩ : BufTy).Contents (Elt Ideal)) :
    val_main_v27 (F := Ideal) x0 x1 x2 x3
      = linArr (val_main_v22 (F := Ideal) x0 x3) (val_main_v23 (F := Ideal) x1) (val_main_v25 (F := Ideal) x2) := by
  funext i
  rw [val_main_v27_apply, val_main_v24_apply, val_main_v26_apply]
  simp only [lidx24, ridx24, bidx26]
  rfl

/-- The second layer: the same map of the re-gathered tokens. -/
theorem layer2 (x0 : (⟨S8x4x32x32x32, .f32⟩ : BufTy).Contents (Elt Ideal)) (x1 : (⟨S384x4, .f32⟩ : BufTy).Contents (Elt Ideal))
    (x2 : (⟨S384, .f32⟩ : BufTy).Contents (Elt Ideal)) (x3 : (⟨S1024x2, .i32⟩ : BufTy).Contents (Elt Ideal)) :
    val_main_v50 (F := Ideal) x0 x1 x2 x3
      = linArr (val_main_v45 (F := Ideal) x0 x1 x2 x3) (val_main_v46 (F := Ideal) x1) (val_main_v48 (F := Ideal) x2) := by
  funext i
  rw [val_main_v50_apply, val_main_v47_apply, val_main_v49_apply]
  simp only [lidx47, ridx47, bidx49]
  rfl

end Cert.ReferenceIdeal.Hand

end
-- ==== Proof.KernelValue.lean ====
/-
  The kernel's result as the reference's. Walking the buffer contents back from the last boundary:

    result   = reshape (output of the second call)
    output 2 = linArr (tokens 2) (weights) (bias)          -- the second call, whatever it finds
    tokens 2 = reshape ∘ transpose ∘ reshape ∘ gather (reshape (output 1)) (indices 2)
    output 1 = linArr (tokens 1) (weights) (bias)          -- the first call
    tokens 1 = reshape ∘ transpose ∘ reshape ∘ gather (reshape (transpose x)) (indices 1)
    weights  = transpose w,   bias = b as one row.

  The reference computes exactly these stages, with `dot_general` plus a broadcast bias where the kernel has a
  call, and that is `linArr` too. The gathers, transposes and reshapes are the same host operations applied to equal
  arrays on both sides, so they are carried along unopened: each stage of the kernel is shown equal to the
  reference's stage of the same arguments, in order.
-/
import proofs.«131670_j13073880449624_1_alg».proof.Proof.Gen.KernelIdeal.Frame
import proofs.«131670_j13073880449624_1_alg».proof.Proof.Gen.ReferenceIdeal.Read
import proofs.«131670_j13073880449624_1_alg».proof.Proof.Region0
import proofs.«131670_j13073880449624_1_alg».proof.Proof.Region1
import proofs.«131670_j13073880449624_1_alg».proof.Proof.RefLinear
import Idealize.ShloMosaic.Lib.StableHlo.Run
import Idealize.ShloMosaic.Lib.Pipeline.Frame

set_option maxRecDepth 16384

noncomputable section

namespace Cert.KernelIdeal.Hand

open Cert.KernelIdeal Cert.KernelIdeal.Gen Cert.Hand
open Idealize.ShloMosaic Idealize.ShloMosaic.TcCoe Idealize.ShloMosaic.StableHlo Idealize.ShloMosaic.ValueIdx Idealize.SL.Sem
open Cert.ReferenceIdeal.Read (val_main_v1 val_main_v3 val_main_v22 val_main_v23 val_main_v25 val_main_v27 val_main_v45
  val_main_v46 val_main_v48 val_main_v50 val_main_v51 val_main_v25_apply idx_main_v25
  val_main_v28 val_main_v39 val_main_v40)
open Cert.ReferenceIdeal.Hand (layer1 layer2)

variable (m : (ℓ : Loc nD τ sig) → Buf (Elt Ideal) ℓ) (ρ : Dev nD → PrngReg) (c : Dev nD)

/-- The four argument arrays as launched. -/
abbrev A0 : (⟨Cert.ReferenceIdeal.S8x4x32x32x32, .f32⟩ : BufTy).Contents (Elt Ideal) := m ((c.tc : Thread nD τ).loc main_arg0)
abbrev A1 : (⟨Cert.ReferenceIdeal.S384x4, .f32⟩ : BufTy).Contents (Elt Ideal) := m ((c.tc : Thread nD τ).loc main_arg1)
abbrev A2 : (⟨Cert.ReferenceIdeal.S384, .f32⟩ : BufTy).Contents (Elt Ideal) := m ((c.tc : Thread nD τ).loc main_arg2)
abbrev A3 : (⟨Cert.ReferenceIdeal.S1024x2, .i32⟩ : BufTy).Contents (Elt Ideal) := m ((c.tc : Thread nD τ).loc main_arg3)

/-! ## At the first call's entry -/

theorem V1_tok : V1 m ρ c main_v24 = val_main_v22 (F := Ideal) (A0 m c) (A3 m c) := by
  show StableHlo.after hostOps0 (W0 m ρ c) (Proc.devRef .tc main_v24) = _
  after_results_simp
  rfl

theorem V1_w : V1 m ρ c main_v4 = val_main_v23 (F := Ideal) (A1 m c) := by
  show StableHlo.after hostOps0 (W0 m ρ c) (Proc.devRef .tc main_v4) = _
  after_results_simp
  rfl

/-- The bias as one row: the kernel reshapes `b` to `[1, 384]`, the reference broadcasts it there; the same row. -/
theorem V1_b : V1 m ρ c main_v5 = val_main_v25 (F := Ideal) (A2 m c) := by
  show StableHlo.after hostOps0 (W0 m ρ c) (Proc.devRef .tc main_v5) = _
  after_results_simp
  funext j
  rw [val_main_v25_apply]
  exact shapeCast_apply _ shapeCasts_S384_S1x384 j (idx_main_v25 j)
    (by rewrite [Shape.rowMajor_val_one, Shape.rowMajor_val_two]; have h0 : (j 0).val < 1 := (j 0).isLt; show (j 1).val = (j 0).val * 384 + (j 1).val; omega)

theorem W1_v1 : W1 m ρ c (Proc.devRef .tc main_v1) = val_main_v1 (F := Ideal) (A3 m c) := by
  show StableHlo.after hostOps0 (W0 m ρ c) (Proc.devRef .tc main_v1) = _
  after_results_simp
  rfl

theorem W1_v3 : W1 m ρ c (Proc.devRef .tc main_v3) = val_main_v3 (F := Ideal) (A3 m c) := by
  show StableHlo.after hostOps0 (W0 m ρ c) (Proc.devRef .tc main_v3) = _
  after_results_simp
  rfl

/-! ## At the first call's exit -/

/-- The first call's output is the reference's first layer. -/
theorem W2_out : W2 m ρ c (Proc.devRef .tc main_v25) = val_main_v27 (F := Ideal) (A0 m c) (A1 m c) (A2 m c) (A3 m c) := by
  refine (show W2 m ρ c (Proc.devRef .tc main_v25) = (dat0 (V1 m ρ) c).arrAt 3 cfg0.N from W2_arr m ρ c 3).trans ?_
  rw [out_arr0 (V1 m ρ) c]
  show linArr (n := 262144) (V1 m ρ c main_v24) (V1 m ρ c main_v4) (V1 m ρ c main_v5) = _
  rw [V1_tok m ρ c, V1_w m ρ c, V1_b m ρ c]
  exact (layer1 (A0 m c) (A1 m c) (A2 m c) (A3 m c)).symm

theorem W2_w : W2 m ρ c (Proc.devRef .tc main_v4) = val_main_v23 (F := Ideal) (A1 m c) :=
  ((show W2 m ρ c (Proc.devRef .tc main_v4) = (dat0 (V1 m ρ) c).arrAt 1 cfg0.N from W2_arr m ρ c 1).trans
    (in_arr0_1 (V1 m ρ) c)).trans (V1_w m ρ c)

theorem W2_b : W2 m ρ c (Proc.devRef .tc main_v5) = val_main_v25 (F := Ideal) (A2 m c) :=
  ((show W2 m ρ c (Proc.devRef .tc main_v5) = (dat0 (V1 m ρ) c).arrAt 2 cfg0.N from W2_arr m ρ c 2).trans
    (in_arr0_2 (V1 m ρ) c)).trans (V1_b m ρ c)

theorem W2_v1 : W2 m ρ c (Proc.devRef .tc main_v1) = val_main_v1 (F := Ideal) (A3 m c) :=
  (W2_of_ne m ρ c main_v1 (by decide)).trans (W1_v1 m ρ c)

theorem W2_v3 : W2 m ρ c (Proc.devRef .tc main_v3) = val_main_v3 (F := Ideal) (A3 m c) :=
  (W2_of_ne m ρ c main_v3 (by decide)).trans (W1_v3 m ρ c)

/-! ## At the second call's entry -/

/-- The host operations between the two calls, cut where the two index columns are joined: before the cut the
    first output is re-viewed as `[8, 32, 1024, 384]` and the two columns of gather indices are computed from the curve;
    after it they are joined, the gather runs and its result is re-laid as rows of four. -/
abbrev pre1 : List (HloOp τ sig (Elt Ideal)) :=
  [ StableHlo.reshape main_v25 main_v26 rfl shapeCasts_S262144x384_S8x32x1024x384,
    StableHlo.nullary main_c_3 (constantI S_ 32 0#32),
    StableHlo.unary main_c_3 main_v27 (broadcastInDim S1024 ![] bcast_S_S1024 : (⟨S_, .i32⟩ : BufTy).Contents (Elt Ideal) → (⟨S1024, .i32⟩ : BufTy).Contents (Elt Ideal)),
    StableHlo.binary main_v3 main_v27 main_v28 (cmpi .slt : (⟨S1024, .i32⟩ : BufTy).Contents (Elt Ideal) → (⟨S1024, .i32⟩ : BufTy).Contents (Elt Ideal) → (⟨S1024, .i1⟩ : BufTy).Contents (Elt Ideal)),
    StableHlo.nullary main_c_4 (constantI S_ 32 1024#32),
    StableHlo.unary main_c_4 main_v29 (broadcastInDim S1024 ![] bcast_S_S1024 : (⟨S_, .i32⟩ : BufTy).Contents (Elt Ideal) → (⟨S1024, .i32⟩ : BufTy).Contents (Elt Ideal)),
    StableHlo.binary main_v3 main_v29 main_v30 (addi : (⟨S1024, .i32⟩ : BufTy).Contents (Elt Ideal) → (⟨S1024, .i32⟩ : BufTy).Contents (Elt Ideal) → (⟨S1024, .i32⟩ : BufTy).Contents (Elt Ideal)),
    StableHlo.ternary main_v28 main_v30 main_v3 main_v31 (select : (⟨S1024, .i1⟩ : BufTy).Contents (Elt Ideal) → (⟨S1024, .i32⟩ : BufTy).Contents (Elt Ideal) → (⟨S1024, .i32⟩ : BufTy).Contents (Elt Ideal) → (⟨S1024, .i32⟩ : BufTy).Contents (Elt Ideal)),
    StableHlo.nullary main_c_5 (constantI S_ 32 0#32),
    StableHlo.unary main_c_5 main_v32 (broadcastInDim S1024 ![] bcast_S_S1024 : (⟨S_, .i32⟩ : BufTy).Contents (Elt Ideal) → (⟨S1024, .i32⟩ : BufTy).Contents (Elt Ideal)),
    StableHlo.binary main_v1 main_v32 main_v33 (cmpi .slt : (⟨S1024, .i32⟩ : BufTy).Contents (Elt Ideal) → (⟨S1024, .i32⟩ : BufTy).Contents (Elt Ideal) → (⟨S1024, .i1⟩ : BufTy).Contents (Elt Ideal)),
    StableHlo.nullary main_c_6 (constantI S_ 32 384#32),
    StableHlo.unary main_c_6 main_v34 (broadcastInDim S1024 ![] bcast_S_S1024 : (⟨S_, .i32⟩ : BufTy).Contents (Elt Ideal) → (⟨S1024, .i32⟩ : BufTy).Contents (Elt Ideal)),
    StableHlo.binary main_v1 main_v34 main_v35 (addi : (⟨S1024, .i32⟩ : BufTy).Contents (Elt Ideal) → (⟨S1024, .i32⟩ : BufTy).Contents (Elt Ideal) → (⟨S1024, .i32⟩ : BufTy).Contents (Elt Ideal)),
    StableHlo.ternary main_v33 main_v35 main_v1 main_v36 (select : (⟨S1024, .i1⟩ : BufTy).Contents (Elt Ideal) → (⟨S1024, .i32⟩ : BufTy).Contents (Elt Ideal) → (⟨S1024, .i32⟩ : BufTy).Contents (Elt Ideal) → (⟨S1024, .i32⟩ : BufTy).Contents (Elt Ideal)),
    StableHlo.unary main_v31 main_v37 (broadcastInDim S1024x1 ![0] bcast_S1024_S1024x1_0 : (⟨S1024, .i32⟩ : BufTy).Contents (Elt Ideal) → (⟨S1024x1, .i32⟩ : BufTy).Contents (Elt Ideal)),
    StableHlo.unary main_v36 main_v38 (broadcastInDim S1024x1 ![0] bcast_S1024_S1024x1_0 : (⟨S1024, .i32⟩ : BufTy).Contents (Elt Ideal) → (⟨S1024x1, .i32⟩ : BufTy).Contents (Elt Ideal)) ]
abbrev post1 : List (HloOp τ sig (Elt Ideal)) :=
  [ StableHlo.binary main_v37 main_v38 main_v39 ((fun a b => concatenate S1024x2 1 [⟨S1024x1, a⟩, ⟨S1024x1, b⟩] concatenates_S1024x1_S1024x1_S1024x2_d1) : (⟨S1024x1, .i32⟩ : BufTy).Contents (Elt Ideal) → (⟨S1024x1, .i32⟩ : BufTy).Contents (Elt Ideal) → (⟨S1024x2, .i32⟩ : BufTy).Contents (Elt Ideal)),
    StableHlo.binary main_v26 main_v39 main_v40 ((fun x i => Host.gather gather_S8x32x1024x384_S1024x2_S8x32x1024_01_23_n_n_23_1_83211 x i) : (⟨S8x32x1024x384, .f32⟩ : BufTy).Contents (Elt Ideal) → (⟨S1024x2, .i32⟩ : BufTy).Contents (Elt Ideal) → (⟨S8x32x1024, .f32⟩ : BufTy).Contents (Elt Ideal)),
    StableHlo.reshape main_v40 main_v41 rfl shapeCasts_S8x32x1024_S8x4x8192,
    StableHlo.unary main_v41 main_v42 ((transpose S8x8192x4 [0, 2, 1] · transposes_S8x4x8192_S8x8192x4_0_2_1) : (⟨S8x4x8192, .f32⟩ : BufTy).Contents (Elt Ideal) → (⟨S8x8192x4, .f32⟩ : BufTy).Contents (Elt Ideal)),
    StableHlo.reshape main_v42 main_v43 rfl shapeCasts_S8x8192x4_S65536x4 ]
theorem hostOps1_split : (hostOps1 : List (HloOp τ sig (Elt Ideal))) = pre1 ++ post1 := rfl

theorem V3_tok : V3 m ρ c main_v43 = val_main_v45 (F := Ideal) (A0 m c) (A1 m c) (A2 m c) (A3 m c) := by
  show StableHlo.after hostOps1 (W2 m ρ c) (Proc.devRef .tc main_v43) = _
  rw [hostOps1_split, StableHlo.after_append]
  have h26 : StableHlo.after pre1 (W2 m ρ c) (Proc.devRef .tc main_v26) = val_main_v28 (F := Ideal) (A0 m c) (A1 m c) (A2 m c) (A3 m c) := by
    after_results_simp
    rw [W2_out m ρ c]
    rfl
  have h37 : StableHlo.after pre1 (W2 m ρ c) (Proc.devRef .tc main_v37) = val_main_v39 (F := Ideal) (A3 m c) := by
    after_results_simp
    rw [W2_v3 m ρ c]
    rfl
  have h38 : StableHlo.after pre1 (W2 m ρ c) (Proc.devRef .tc main_v38) = val_main_v40 (F := Ideal) (A3 m c) := by
    after_results_simp
    rw [W2_v1 m ρ c]
    rfl
  generalize StableHlo.after pre1 (W2 m ρ c) = U at h26 h37 h38 ⊢
  after_results_simp
  rw [h26, h37, h38]
  rfl

theorem V3_w : V3 m ρ c main_v4 = val_main_v46 (F := Ideal) (A1 m c) := by
  show StableHlo.after hostOps1 (W2 m ρ c) (Proc.devRef .tc main_v4) = _
  after_results_simp
  exact W2_w m ρ c

theorem V3_b : V3 m ρ c main_v5 = val_main_v48 (F := Ideal) (A2 m c) := by
  show StableHlo.after hostOps1 (W2 m ρ c) (Proc.devRef .tc main_v5) = _
  after_results_simp
  exact W2_b m ρ c

/-! ## At the second call's exit, and the result -/

/-- The second call's output is the reference's second layer. -/
theorem W4_out : W4 m ρ c (Proc.devRef .tc main_v44) = val_main_v50 (F := Ideal) (A0 m c) (A1 m c) (A2 m c) (A3 m c) := by
  refine (show W4 m ρ c (Proc.devRef .tc main_v44) = (dat1 (V3 m ρ) c).arrAt 3 cfg1.N from W4_arr m ρ c 3).trans ?_
  rw [out_arr1 (V3 m ρ) c]
  show linArr (n := 65536) (V3 m ρ c main_v43) (V3 m ρ c main_v4) (V3 m ρ c main_v5) = _
  rw [V3_tok m ρ c, V3_w m ρ c, V3_b m ρ c]
  exact (layer2 (A0 m c) (A1 m c) (A2 m c) (A3 m c)).symm

/-- THE RESULT: what the kernel's run leaves in its result buffer is the reference's last stage of the same arguments. -/
theorem result_eq : W5 m ρ c (Proc.devRef .tc main_v45) = val_main_v51 (F := Ideal) (A0 m c) (A1 m c) (A2 m c) (A3 m c) := by
  show StableHlo.after hostOps2 (W4 m ρ c) (Proc.devRef .tc main_v45) = _
  after_results_simp
  rw [W4_out m ρ c]
  rfl

end Cert.KernelIdeal.Hand

end
-- ==== Proof.lean ====
/-
  `Cert.Claim`: the Pallas kernel (two linear layers `tok · wᵀ + b`, each one pallas_call gridded over blocks of 8192
  token rows, around two Hilbert-curve gathers done on the host) against the jnp reference (the same gathers, with
  `tok @ w.T + b` on the host).

  At the ideal values both programs compute the same stages in the same order:

      tok1 = the first gather of x, re-laid as 262144 rows of 4 channels
      y1[r, q] = Σ_{k < 4} tok1[r, k] · w[q, k] + b[q]
      tok2 = the second gather, of y1 seen as [8, 32, 1024, 384], re-laid as 65536 rows of 4
      y2[r, q] = Σ_{k < 4} tok2[r, k] · w[q, k] + b[q],        result = y2 seen as [8, 8, 1024, 384].

  A block matrix product into a zero accumulator and the host's `dot_general` are the same four-term sum
  (`0 + x = x`), each output row is written by exactly one grid point, and the gathers, transposes and reshapes are
  literally the same operations on equal arrays. Nothing needs the inputs finite, and the gather indices are
  whatever the `curve` argument holds: both sides read it the same way.

  The frames of the two kernel programs are the generated ones; the reference's frame is its generated run with the
  result dropped; the ideal pass rewrote nothing, so `preserves` is `True`.
-/
import proofs.«131670_j13073880449624_1_alg».proof.Defs
import proofs.«131670_j13073880449624_1_alg».proof.Proof.Gen.Kernel
import proofs.«131670_j13073880449624_1_alg».proof.Proof.Gen.Kernel.Frame
import proofs.«131670_j13073880449624_1_alg».proof.Proof.Gen.KernelIdeal
import proofs.«131670_j13073880449624_1_alg».proof.Proof.Gen.KernelIdeal.Frame
import proofs.«131670_j13073880449624_1_alg».proof.Proof.Gen.ReferenceIdeal
import proofs.«131670_j13073880449624_1_alg».proof.Proof.Gen.Pre_finite_inputs
import proofs.«131670_j13073880449624_1_alg».proof.Proof.Gen.ReferenceIdeal.Run
import proofs.«131670_j13073880449624_1_alg».proof.Proof.Gen.ReferenceIdeal.Read
import proofs.«131670_j13073880449624_1_alg».proof.Proof.KernelRun
import proofs.«131670_j13073880449624_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the reference's last stage of the (agreeing) arguments in their result buffers. -/
theorem algebraic : Cert.algebraic_KernelIdeal_ReferenceIdeal := by
  intro m ρ m' ρ' _ hagree
  refine ⟨fun c => Cert.ReferenceIdeal.Value.res_main_v51 m' c, ?_, Cert.ReferenceIdeal.Value.run (F := Ideal) m' ρ'⟩
  refine (θ_run Cert.KernelIdeal.defs _ _).mono (fun _ h c => ⟨(h c).1.trans ?_, (h c).2⟩)
    (Cert.KernelIdeal.Hand.run_result (F := Ideal) m ρ)
  refine (Cert.KernelIdeal.Hand.result_eq m ρ c).trans ?_
  show _ = Cert.ReferenceIdeal.Value.res_main_v51 m' c
  rw [Cert.ReferenceIdeal.Read.val_main_v51_eq m' c, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
